-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x600000 32) (main_arg2 : FVec F S600000x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩

abbrev nBuf : Space → Nat
  | .hbm => 30
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S128x128, .f32⟩
  | .hbm, ⟨27, _⟩ => ⟨S128x128, .bf16⟩
  | .hbm, ⟨28, _⟩ => ⟨S1x128, .f32⟩
  | .hbm, ⟨29, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_cst : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeLayer.lean ====
/-
  One graph-convolution layer's node update with a residual connection, as a function on the extended reals.

  For node features `x` (100000 nodes, 128 channels), aggregated messages `a` of the same shape, a weight
  matrix `w` (128 × 128, stored output channel first) and a bias `b`, entry (n, d) of the result is

      max (∑ₖ ((1 + ε) · x[n, k] + a[n, k]) · w[d, k] + b[d]) 0 + x[n, d]

  where `1 + ε` and `0` stand for the two 32-bit float words the programs spell (`0x3F800054`, the float
  nearest to 1.00001, and the zero word). The words are kept as words: both programs carry the same two, so
  their values are never needed. Only sums, products and a maximum occur, each applied to the same operands in
  the same order on both sides, so no law of the extended reals beyond reflexivity is used and the entries may
  be infinite.
-/
import Idealize.ShloMosaic.PureOps.Ideal
import Idealize.ShloMosaic.Lib.ValueIdx

noncomputable section

namespace Cert.NodeLayer

open Idealize.ShloMosaic Idealize.ShloMosaic.ValueIdx

/-- Entry (n, d) of the layer: the row `n` of `(1 + ε) · x + a` against the row `d` of `w`, plus the bias at
    `d`, cut off below at zero, plus the node's own feature `x[n, d]`. -/
def entry (x a : (⟨2, ![100000, 128]⟩ : Shape).Idx → EReal) (w : (⟨2, ![128, 128]⟩ : Shape).Idx → EReal)
    (b : (⟨1, ![128]⟩ : Shape).Idx → EReal) (n : Fin 100000) (d : Fin 128) : EReal :=
  max ((∑ k : Fin 128, (Ideal.ofBits .f32 0x3F800054#32 * x (ix2 n k) + a (ix2 n k)) * w (ix2 d k)) + b (ix1 d))
      (Ideal.ofBits .f32 0x00000000#32)
    + x (ix2 n d)

/-- The whole result array: `entry` at the two coordinates of the index. -/
def layer (x a : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => entry x a w b (i 0) (i 1)

/-- At an index given by its coordinates the array is the entry. -/
theorem layer_ix2 (x a : (⟨2, ![100000, 128]⟩ : Shape).Idx → EReal) (w : (⟨2, ![128, 128]⟩ : Shape).Idx → EReal)
    (b : (⟨1, ![128]⟩ : Shape).Idx → EReal) (n : Fin 100000) (d : Fin 128) :
    layer x a w b (ix2 n d) = entry x a w b n d := rfl

end Cert.NodeLayer

end
-- ==== Proof.BodyEntry.lean ====
/-
  What the kernel body stores, read at one element of its block.

  The body works on a block of 5000 rows. From the block `x` of node features, the block `a` of aggregated
  messages, the transposed weights `wt` (128 × 128, input channel first) and the bias row `b` (1 × 128) it
  stores `max (((1 + ε) · x + a) · wt + b) 0 + x`, where `·` between the two matrices is a matrix product into
  a zero accumulator. At row `r` and column `q` this is

      max (∑ₖ ((1 + ε) · x[r, k] + a[r, k]) · wt[k, q] + b[0, q]) 0 + x[r, q].

  The narrowing of the left factor to 16-bit floats is the identity on the extended reals, the casts of a shape
  to itself are the identity, the broadcast of the bias row reads row 0, and the matrix product into zero is the
  plain sum over the one contracted coordinate.
-/
import proofs.«172069_j76785425318277_2_alg».proof.Proof.Gen.KernelIdeal.Skeleton
import proofs.«172069_j76785425318277_2_alg».proof.Proof.NodeLayer
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The left operand's index of the product at an output index keeps the output's row. -/
theorem lhs_row (i : S5000x128.Idx) (κ : (dot_S5000x128_S128x128_S5000x128_1_0_0_1_n_n).contr.Idx) :
    ((dot_S5000x128_S128x128_S5000x128_1_0_0_1_n_n).lhsIdx i κ 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

/-- The right operand's index of the product at an output index keeps the output's column. -/
theorem rhs_col (i : S5000x128.Idx) (κ : (dot_S5000x128_S128x128_S5000x128_1_0_0_1_n_n).contr.Idx) :
    ((dot_S5000x128_S128x128_S5000x128_1_0_0_1_n_n).rhsIdx i κ 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The matrix product of a 5000 × 128 block with a 128 × 128 matrix, accumulated into zero, at (r, q): the sum over
    the contracted coordinate `k` of `l[r, k] · w[k, q]`. The contraction index has one axis of extent 128, so the
    sum over it is re-indexed by that one coordinate. -/
theorem matmul_at (l : FVec Ideal S5000x128 .bf16) (w : FVec Ideal S128x128 .bf16) (r : Fin 5000) (q : Fin 128) :
    matmul dot_S5000x128_S128x128_S5000x128_1_0_0_1_n_n none l w (constant S5000x128 .f32 0x00000000#32) (ix2 r q)
      = ∑ k : Fin 128, l (ix2 r k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 r q)
      ((contrEquiv1 dot_S5000x128_S128x128_S5000x128_1_0_0_1_n_n 128 rfl rfl).symm k) = ix2 r k :=
    funext fun a => Fin.ext (by
      match a with
      | ⟨0, _⟩ => exact lhs_row _ _
      | ⟨1, _⟩ => exact ((dot_S5000x128_S128x128_S5000x128_1_0_0_1_n_n).lhsIdx_val_of_single rfl _ _).trans hk)
  have er : (dot_S5000x128_S128x128_S5000x128_1_0_0_1_n_n).rhsIdx (ix2 r q)
      ((contrEquiv1 dot_S5000x128_S128x128_S5000x128_1_0_0_1_n_n 128 rfl rfl).symm k) = ix2 k q :=
    funext fun a => Fin.ext (by
      match a with
      | ⟨0, _⟩ => exact ((dot_S5000x128_S128x128_S5000x128_1_0_0_1_n_n).rhsIdx_val_of_single rfl _ _).trans hk
      | ⟨1, _⟩ => exact rhs_col _ _)
  rw [el, er]

/-- The bias row broadcast down the 5000 rows reads, at (r, q), the row's entry at column `q`. -/
theorem bias_at (b : FVec Ideal S1x128 .f32) (r : Fin 5000) (q : Fin 128) :
    broadcastTo S5000x128 b broadcasts_S1x128_S5000x128 (ix2 r q) = b (ix2 0 q) :=
  broadcastTo_apply b broadcasts_S1x128_S5000x128 (ix2 r q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- THE STORED VALUE AT (r, q), from the loaded blocks. -/
theorem stored_at (x a : Vec Ideal S5000x128 .f32) (wt : Vec Ideal S128x128 .bf16) (b : Vec Ideal S1x128 .f32)
    (x' : Vec Ideal S5000x128 .f32) (r : Fin 5000) (q : Fin 128) :
    k0_pay1 (F := Ideal) x a wt b x' (ix2 r q)
      = max ((∑ k : Fin 128, (Ideal.ofBits .f32 0x3F800054#32 * x (ix2 r k) + a (ix2 r k)) * wt (ix2 k q)) + b (ix2 0 q))
          (Ideal.ofBits .f32 0x00000000#32) + x' (ix2 r q) := by
  unfold k0_pay1
  simp only [shapeCast_self]
  show max (matmul (F := Ideal) dot_S5000x128_S128x128_S5000x128_1_0_0_1_n_n none _ wt (constant S5000x128 .f32 0x00000000#32) (ix2 r q)
      + broadcastTo S5000x128 b broadcasts_S1x128_S5000x128 (ix2 r q)) _ + _ = _
  rw [matmul_at, bias_at]
  rfl

/-- When the blocks are the rows `row r` of whole arrays `X`, `A`, the transposed weights read `W` with its two
    coordinates exchanged, and the bias row reads the bias vector `B`, the stored value at (r, q) is the layer's
    entry (row r, q) of the whole arrays. -/
theorem stored_eq_entry (X A : (⟨2, ![100000, 128]⟩ : Shape).Idx → EReal) (W : (⟨2, ![128, 128]⟩ : Shape).Idx → EReal)
    (B : (⟨1, ![128]⟩ : Shape).Idx → EReal)
    (x a : Vec Ideal S5000x128 .f32) (wt : Vec Ideal S128x128 .bf16) (b : Vec Ideal S1x128 .f32)
    (row : Fin 5000 → Fin 100000)
    (hx : ∀ (r : Fin 5000) (k : Fin 128), x (ix2 r k) = X (ix2 (row r) k))
    (ha : ∀ (r : Fin 5000) (k : Fin 128), a (ix2 r k) = A (ix2 (row r) k))
    (hw : ∀ (k q : Fin 128), wt (ix2 k q) = W (ix2 q k))
    (hb : ∀ q : Fin 128, b (ix2 0 q) = B (ix1 q))
    (r : Fin 5000) (q : Fin 128) :
    k0_pay1 (F := Ideal) x a wt b x (ix2 r q) = Cert.NodeLayer.entry X A W B (row r) q := by
  rw [stored_at]
  simp only [hx, ha, hw, hb]
  rfl

end Cert.KernelIdeal.Body

end
-- ==== Proof.EntryArrays.lean ====
/-
  The arrays the kernel's windows read, as the host operations before the launch leave them.

  Three of the kernel's four input windows read arrays that the program computes first on the host:
  the aggregated messages (a gather of the node features along the edges' sources, plus the edge features, cut off
  below at zero, scatter-added to the edges' targets), the weight matrix transposed (and narrowed to 16-bit floats,
  the identity on the extended reals), and the bias as a 1 × 128 row. The fourth reads the node features as given.

  The aggregated messages are never opened: the reference computes them by the same operations on the same
  arguments, so one name for that term serves both programs. The transposed weights and the bias row are read at
  an index: `wt[k, q] = W[q, k]` and `row[0, q] = b[q]`.
-/
import proofs.«172069_j76785425318277_2_alg».proof.Proof.Gen.KernelIdeal.Frame
import proofs.«172069_j76785425318277_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The aggregated messages as a function of the three arguments they depend on (node features, edge endpoints,
    edge features): the term the reference's own host operations compose for the same array. -/
abbrev aggregated (c : Dev nD) : S100000x128.Idx → EReal :=
  Cert.ReferenceIdeal.Read.val_main_v15 (F := Ideal) (m ((c : Thread nD τ).loc main_arg0))
    (m ((c : Thread nD τ).loc main_arg1)) (m ((c : Thread nD τ).loc main_arg2))

set_option maxHeartbeats 2000000 in
/-- The second window's array at the launch is the aggregated messages: the two programs' host operations up to
    the scatter-add are the same operations with the same dimension numbers. -/
theorem aggregated_eq (c : Dev nD) : (V m c main_v15 : S100000x128.Idx → EReal) = aggregated m c := by
  dsimp only [Gen.V]
  simp only [Gen.hostOps0, Gen.hostOps0_1, Gen.hostOps0_2, List.flatten_cons, List.flatten_nil, List.append_nil,
    List.cons_append, List.nil_append]
  after_results_simp <;> rfl

/-- The third window's array at the launch is the weight matrix transposed, then narrowed. -/
theorem weights_eq (c : Dev nD) :
    (V m c main_v17 : S128x128.Idx → EReal)
      = truncf (F := Ideal) .bf16 (transpose S128x128 [1, 0] (m ((c : Thread nD τ).loc main_arg3)) transposes_S128x128_S128x128_1_0)
          bitsLt_bf16_f32 := by
  dsimp only [Gen.V]
  simp only [Gen.hostOps0, Gen.hostOps0_1, Gen.hostOps0_2, List.flatten_cons, List.flatten_nil, List.append_nil,
    List.cons_append, List.nil_append]
  after_results_simp <;> rfl

/-- The fourth window's array at the launch is the bias vector recast as one row. -/
theorem bias_eq (c : Dev nD) :
    (V m c main_v18 : S1x128.Idx → EReal) = shapeCast S1x128 (m ((c : Thread nD τ).loc main_arg4)) shapeCasts_S128_S1x128 := by
  dsimp only [Gen.V]
  simp only [Gen.hostOps0, Gen.hostOps0_1, Gen.hostOps0_2, List.flatten_cons, List.flatten_nil, List.append_nil,
    List.cons_append, List.nil_append]
  after_results_simp <;> rfl

/-- Entry (k, q) of the transposed weights is entry (q, k) of the weight matrix. -/
theorem weights_at (c : Dev nD) (k q : Fin 128) :
    (V m c main_v17 : S128x128.Idx → EReal) (ix2 k q) = m ((c : Thread nD τ).loc main_arg3) (ix2 q k) := by
  rw [weights_eq]
  show transpose S128x128 [1, 0] (m ((c : Thread nD τ).loc main_arg3)) transposes_S128x128_S128x128_1_0 (ix2 k q) = _
  exact transpose_apply [1, 0] _ transposes_S128x128_S128x128_1_0 (ix2 k q) (ix2 q k) (fun b => match b with
    | ⟨0, _⟩ => rfl
    | ⟨1, _⟩ => rfl)

/-- Entry (0, q) of the bias row is entry `q` of the bias vector. -/
theorem bias_at (c : Dev nD) (q : Fin 128) :
    (V m c main_v18 : S1x128.Idx → EReal) (ix2 0 q) = m ((c : Thread nD τ).loc main_arg4) (ix1 q) := by
  rw [bias_eq]
  exact shapeCast_apply _ shapeCasts_S128_S1x128 (ix2 0 q) (ix1 q)
    (by rewrite [Shape.rowMajor_val_one, Shape.rowMajor_val_two]; show q.val = 0 * 128 + q.val; omega)

end Cert.KernelIdeal.Entry

end
-- ==== Proof.KernelLayer.lean ====
/-
  The kernel's result array is the layer.

  The kernel runs over 20 grid points. At point `t` it reads rows `5000·t … 5000·t + 4999` of the node features and of
  the aggregated messages, the whole transposed weight matrix and the whole bias row, and writes back rows
  `5000·t … 5000·t + 4999` of the result. So the block a point writes back is the matching block of the layer of
  the whole arrays (each stored element is the layer's entry at its row and column), the 20 blocks cover all 100000
  rows, and the array after the run is the layer.
-/
import proofs.«172069_j76785425318277_2_alg».proof.Proof.Gen.KernelIdeal.Value
import proofs.«172069_j76785425318277_2_alg».proof.Proof.NodeLayer
import proofs.«172069_j76785425318277_2_alg».proof.Proof.BodyEntry
import proofs.«172069_j76785425318277_2_alg».proof.Proof.EntryArrays

noncomputable section

namespace Cert.KernelIdeal.Layer

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The zero offsets of a rectangle that is a whole block, spelt as a constant function. -/
theorem zero_offsets : (![0, 0] : Fin 2 → Nat) = fun _ => 0 := funext fun a => by fin_cases a <;> rfl

/-- The layer of the argument arrays: node features, aggregated messages, weights, bias. -/
abbrev result (c : Dev nD) : S100000x128.Idx → EReal :=
  Cert.NodeLayer.layer (m ((c : Thread nD τ).loc main_arg0)) (Entry.aggregated m c)
    (m ((c : Thread nD τ).loc main_arg3)) (m ((c : Thread nD τ).loc main_arg4))

/-- Which block each window is on at point `t`: the three row-blocked windows (features, messages, result) on row
    block `t`, the weights and the bias on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- There are 20 points. -/
theorem point_lt (t : Fin cfg0.N) : t.val < 20 := lt_of_lt_of_eq t.isLt N_0

/-- Row `r` of point `t`'s block is row `5000·t + r` of the array. -/
def rowOf (t : Fin cfg0.N) (r : Fin 5000) : Fin 100000 :=
  ⟨t.val * 5000 + r.val, by have := point_lt t; have := r.isLt; omega⟩

/-- The node-feature block at point `t`: rows `5000·t + r` of the argument. -/
theorem features_block (c : Dev nD) (t : Fin cfg0.N) (r : Fin 5000) (k : Fin 128) :
    iblk m c 0 t (ix2 r k) = m ((c : Thread nD τ).loc main_arg0) (ix2 (rowOf t r) k) := by
  obtain ⟨e0, e1, -⟩ := block_indices t
  show V m c main_arg0 (((cfg0.win 0).blk t).view.emb (ix2 r k)) = _
  rw [V_main_arg0]
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The message block at point `t`: rows `5000·t + r` of the aggregated messages. -/
theorem messages_block (c : Dev nD) (t : Fin cfg0.N) (r : Fin 5000) (k : Fin 128) :
    iblk m c 1 t (ix2 r k) = Entry.aggregated m c (ix2 (rowOf t r) k) := by
  obtain ⟨-, -, e0, e1, -⟩ := block_indices t
  show (V m c main_v15 : S100000x128.Idx → EReal) (((cfg0.win 1).blk t).view.emb (ix2 r k)) = _
  rw [Entry.aggregated_eq]
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- The weight block at every point is the whole transposed matrix: entry (k, q) is `W[q, k]`. -/
theorem weights_block (c : Dev nD) (t : Fin cfg0.N) (k q : Fin 128) :
    iblk m c 2 t (ix2 k q) = m ((c : Thread nD τ).loc main_arg3) (ix2 q k) := by
  obtain ⟨-, -, -, -, e0, e1, -⟩ := block_indices t
  have he : ((cfg0.win 2).blk t).view.emb (ix2 k q) = (ix2 k q : S128x128.Idx) := funext fun a => Fin.ext (by
    match a with
    | ⟨0, _⟩ => show win0_2.index t (0 : Fin 2) * 128 + 1 * k.val = k.val; omega
    | ⟨1, _⟩ => show win0_2.index t (1 : Fin 2) * 128 + 1 * q.val = q.val; omega)
  show (V m c main_v17 : S128x128.Idx → EReal) (((cfg0.win 2).blk t).view.emb (ix2 k q)) = _
  rw [he]
  exact Entry.weights_at m c k q

/-- The bias block at every point is the whole row: entry (0, q) is `b[q]`. -/
theorem bias_block (c : Dev nD) (t : Fin cfg0.N) (q : Fin 128) :
    iblk m c 3 t (ix2 0 q) = m ((c : Thread nD τ).loc main_arg4) (ix1 q) := by
  obtain ⟨-, -, -, -, -, -, e0, e1, -⟩ := block_indices t
  have he : ((cfg0.win 3).blk t).view.emb (ix2 0 q) = (ix2 0 q : S1x128.Idx) := funext fun a => Fin.ext (by
    match a with
    | ⟨0, _⟩ => show win0_3.index t (0 : Fin 2) * 1 + 1 * 0 = 0; omega
    | ⟨1, _⟩ => show win0_3.index t (1 : Fin 2) * 128 + 1 * q.val = q.val; omega)
  show (V m c main_v18 : S1x128.Idx → EReal) (((cfg0.win 3).blk t).view.emb (ix2 0 q)) = _
  rw [he]
  exact Entry.bias_at m c q

/-- WHAT POINT `t` WRITES BACK is block `t` of the layer: the one store covers the block, and its value at (r, q) is
    the layer's entry at row `5000·t + r`, column `q`, which is where the block's element (r, q) sits in the array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, e0, e1⟩ := block_indices t
  funext j
  show k0_pay1 (F := Ideal) (iblk m c 0 t) (iblk m c 1 t) (iblk m c 2 t) (iblk m c 3 t) (iblk m c 0 t) j
      = result m c (((cfg0.win 4).blk t).view.emb j)
  have hr : (((cfg0.win 4).blk t).view.emb j) 0 = rowOf t (j 0) := Fin.ext (by
    show win0_4.index t (0 : Fin 2) * 5000 + 1 * (j 0).val = t.val * 5000 + (j 0).val; omega)
  have hq : (((cfg0.win 4).blk t).view.emb j) 1 = j 1 := Fin.ext (by
    show win0_4.index t (1 : Fin 2) * 128 + 1 * (j 1).val = (j 1).val; omega)
  refine (congrArg (k0_pay1 (F := Ideal) (iblk m c 0 t) (iblk m c 1 t) (iblk m c 2 t) (iblk m c 3 t) (iblk m c 0 t))
    (eq_ix2 j)).trans ?_
  refine (Body.stored_eq_entry (m ((c : Thread nD τ).loc main_arg0)) (Entry.aggregated m c)
    (m ((c : Thread nD τ).loc main_arg3)) (m ((c : Thread nD τ).loc main_arg4))
    (iblk m c 0 t) (iblk m c 1 t) (iblk m c 2 t) (iblk m c 3 t) (rowOf t)
    (features_block m c t) (messages_block m c t) (weights_block m c t) (bias_block m c t) (j 0) (j 1)).trans ?_
  show Cert.NodeLayer.entry _ _ _ _ _ _
      = Cert.NodeLayer.entry _ _ _ _ ((((cfg0.win 4).blk t).view.emb j) 0) ((((cfg0.win 4).blk t).view.emb j) 1)
  rw [hr, hq]

/-- An index of the array is in point `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v19).slice (win0_4.rect t)).set ↔ _
  rw [View.set_slice_whole, Rect.mem_set_unit]
  exact Iff.rfl

/-- Every index of the result array is in the block of the point its row falls to: row `n` belongs to point `n / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_4 _, ?_⟩
  obtain ⟨-, -, -, -, -, -, -, -, e0, e1⟩ := block_indices ⟨(i 0).val / 5000, hN⟩
  rw [mem_block]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    rw [e1]; omega

/-- THE RESULT ARRAY after the run is the layer of the argument arrays. -/
theorem final (c : Dev nD) : (dats m 0 c).arrAt 4 cfg0.N = result m c :=
  (dats m 0 c).arrAt_eq_of_cover 4 (result m c) (fun t _ => flushed_eq m c t) covered

/-- The kernel's run: it ends, without a fault, with the result at the layer and the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Layer

end
-- ==== Proof.ReferenceLayer.lean ====
/-
  The reference's result is the layer.

  The reference computes, on the host, `h = ((1 + ε) · x + a) · Wᵀ + b` and returns `max h 0 + x`, where `a` is
  the array of aggregated messages. Read at (n, d): the product with the transposed weights contracts the second
  coordinate of both factors, so it is `∑ₖ ((1 + ε) · x[n, k] + a[n, k]) · W[d, k]`; the bias, first made a row and
  then repeated down the rows, reads `b[d]`. That is the layer's entry (n, d), term for term.
-/
import proofs.«172069_j76785425318277_2_alg».proof.Proof.Gen.ReferenceIdeal.Read
import proofs.«172069_j76785425318277_2_alg».proof.Proof.NodeLayer

noncomputable section

namespace Cert.ReferenceIdeal.Layer

open Idealize.ShloMosaic Idealize.ShloMosaic.ValueIdx Cert.ReferenceIdeal Cert.ReferenceIdeal.Read

/-- The left factor of the product at output (n, d) and contracted coordinate `k` is read at (n, k). -/
theorem left_index (n : Fin 100000) (d k : Fin 128) : lidx_main_v20 (ix2 n d) k = ix2 n k :=
  funext fun a => Fin.ext (by match a with | ⟨0, _⟩ => rfl | ⟨1, _⟩ => rfl)

/-- The transposed weights at (k, d) are the weights at (d, k). -/
theorem weight_index (n : Fin 100000) (d k : Fin 128) : idx_main_v19 (ridx_main_v20 (ix2 n d) k) = ix2 d k :=
  funext fun a => Fin.ext (by match a with | ⟨0, _⟩ => rfl | ⟨1, _⟩ => rfl)

/-- The bias repeated down the rows reads, at (n, d), the vector's entry `d`. -/
theorem bias_index (n : Fin 100000) (d : Fin 128) : idx_main_v21 (idx_main_v22 (ix2 n d)) = ix1 d :=
  funext fun a => Fin.ext (by match a with | ⟨0, _⟩ => rfl)

/-- THE REFERENCE IS THE LAYER of the node features, the aggregated messages, the weights and the bias. -/
theorem result_eq (x0 : (⟨S100000x128, .f32⟩ : BufTy).Contents (Elt Ideal)) (x1 : (⟨S2x600000, .i32⟩ : BufTy).Contents (Elt Ideal))
    (x2 : (⟨S600000x128, .f32⟩ : BufTy).Contents (Elt Ideal)) (x3 : (⟨S128x128, .f32⟩ : BufTy).Contents (Elt Ideal))
    (x4 : (⟨S128, .f32⟩ : BufTy).Contents (Elt Ideal)) :
    val_main_v25 (F := Ideal) x0 x1 x2 x3 x4
      = Cert.NodeLayer.layer x0 (val_main_v15 (F := Ideal) x0 x1 x2) x3 x4 := by
  funext i
  obtain ⟨n, d, rfl⟩ : ∃ (n : Fin 100000) (d : Fin 128), i = ix2 n d := ⟨i 0, i 1, eq_ix2 i⟩
  rw [val_main_v25_apply, val_main_v24_apply, val_main_v23_apply, val_main_v20_apply, val_main_v22_apply,
    val_main_v21_apply, val_main_call1_v0_apply, val_main_call1_cst_apply, Cert.NodeLayer.layer_ix2]
  simp only [val_main_v18_apply, val_main_v17_apply, val_main_v16_apply, val_main_cst_1_apply, val_main_v19_apply,
    left_index, weight_index, bias_index, Ideal.addf_def, Ideal.mulf_def, Ideal.maximumf_def, Ideal.ofBits_def]
  rfl

end Cert.ReferenceIdeal.Layer

end
-- ==== Proof.lean ====
/-
  A graph-convolution layer with a residual: the kernel against its reference, on the extended reals.

  Both programs first aggregate messages on the host — gather the node features at the edges' sources, add the
  edge features, cut off below at zero, scatter-add to the edges' targets — by the same operations on the same
  arguments; call the result `a`. Both then return, at node `n` and channel `d`,

      max (∑ₖ ((1 + ε) · x[n, k] + a[n, k]) · W[d, k] + b[d]) 0 + x[n, d].

  The reference forms `((1 + ε) · x + a) · Wᵀ + b` as one product of whole arrays on the host. The kernel forms it
  5000 rows at a time over 20 grid points, with the transposed weights and the bias as a row prepared on the host,
  the left factor narrowed to 16-bit floats (the identity on the extended reals) and the product accumulated into
  zero. Entry by entry the two are the same sum of the same products, so they are equal for all extended-real
  inputs; finiteness of the inputs is not used.

  The three frames: the two kernels' are their frame runs; the reference's is its run with the result dropped.
  The idealization rewrote nothing, so there is nothing to preserve.
-/
import proofs.«172069_j76785425318277_2_alg».proof.Defs
import proofs.«172069_j76785425318277_2_alg».proof.Proof.Gen.Kernel
import proofs.«172069_j76785425318277_2_alg».proof.Proof.Gen.Kernel.Skeleton
import proofs.«172069_j76785425318277_2_alg».proof.Proof.Gen.Kernel.Launch
import proofs.«172069_j76785425318277_2_alg».proof.Proof.Gen.Kernel.Points
import proofs.«172069_j76785425318277_2_alg».proof.Proof.Gen.Kernel.Frame
import proofs.«172069_j76785425318277_2_alg».proof.Proof.Gen.KernelIdeal
import proofs.«172069_j76785425318277_2_alg».proof.Proof.Gen.KernelIdeal.Skeleton
import proofs.«172069_j76785425318277_2_alg».proof.Proof.Gen.KernelIdeal.Launch
import proofs.«172069_j76785425318277_2_alg».proof.Proof.Gen.KernelIdeal.Points
import proofs.«172069_j76785425318277_2_alg».proof.Proof.Gen.KernelIdeal.Frame
import proofs.«172069_j76785425318277_2_alg».proof.Proof.Gen.KernelIdeal.Value
import proofs.«172069_j76785425318277_2_alg».proof.Proof.Gen.ReferenceIdeal
import proofs.«172069_j76785425318277_2_alg».proof.Proof.Gen.ReferenceIdeal.Run
import proofs.«172069_j76785425318277_2_alg».proof.Proof.Gen.ReferenceIdeal.Read
import proofs.«172069_j76785425318277_2_alg».proof.Proof.Gen.Pre_finite_inputs
import proofs.«172069_j76785425318277_2_alg».proof.Proof.KernelLayer
import proofs.«172069_j76785425318277_2_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories that agree on the five arguments, the kernel ends with its result at the layer of its arguments
    and the reference with its result at the layer of its own; the arguments agree, so the two arrays are equal. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Layer.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
